-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : IVec S8192x8192 32) (main_arg2 : FVec F S128x128 .f32) (main_arg3 : FVec F S128x128 .f32) (main_arg4 : FVec F S128x128 .f32) (main_arg5 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S128x384 : Shape := ⟨2, ![128, 384]⟩
abbrev S1x128 : Shape := ⟨2, ![1, 128]⟩
abbrev S512x8192 : Shape := ⟨2, ![512, 8192]⟩
abbrev S512x128 : Shape := ⟨2, ![512, 128]⟩
abbrev S8192x384 : Shape := ⟨2, ![8192, 384]⟩

abbrev nBuf : Space → Nat
  | .hbm => 9
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x384, .f32⟩
  | .hbm, ⟨7, _⟩ => ⟨S1x128, .f32⟩
  | .hbm, ⟨8, _⟩ => ⟨S8192x128, .f32⟩
  | .local _ .vmem, ⟨0, _⟩ => ⟨S8192x128, .f32⟩
  | .local _ .vmem, ⟨1, _⟩ => ⟨S128x384, .f32⟩
  | .local _ .vmem, ⟨2, _⟩ => ⟨S512x8192, .i32⟩
  | .local _ .vmem, ⟨3, _⟩ => ⟨S512x8192, .i32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S8192x384, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S128x128_S128x128_S128x128_S128x384_d1 : Shape.Concatenates [S128x128, S128x128, S128x128] S128x384 1
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  bitsLt_bf16_f32 : FTy.bits .bf16 < FTy.bits .f32
  inb_S8192x384_S8192x384_0_0 : ∀ a, (![0, 0] : Fin 2 → Nat) a + S8192x384.size a ≤ S8192x384.size a
  h_S8192x384 : 0 < S8192x384.numel
  shapeCasts_S8192x384_S8192x384 : S8192x384.ShapeCasts S8192x384
  packedbf16_S8192x384_S8192x384_0_0 : (Rect.unit (s := S8192x384) ![0, 0] S8192x384.size inb_S8192x384_S8192x384_0_0).PackedRows (EltTy.packing .bf16)
  inb_S512x8192_S512x8192_0_0 : ∀ a, (![0, 0] : Fin 2 → Nat) a + S512x8192.size a ≤ S512x8192.size a
  h_S512x8192 : 0 < S512x8192.numel
  natLt_1_32 : 1 < 32
  slices_S8192x384_o0_0_S8192x128 : S8192x384.Slices ![0, 0] S8192x128
  slices_S8192x384_o0_128_S8192x128 : S8192x384.Slices ![0, 128] S8192x128
  slices_S8192x384_o0_256_S8192x128 : S8192x384.Slices ![0, 256] S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S8192x128_S128x384_S8192x384_1_0_0_1_n_n_wf : DotDims.WF S8192x128 S128x384 S8192x384 [1] [0] [0] [1] [] []
  dot_S512x8192_S8192x128_S512x128_1_0_0_1_n_n_wf : DotDims.WF S512x8192 S8192x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S8192x8192.size a
  hwx0_2 : ∀ i : grid0.Coords, EltTy.bits .i32 = 32 ∨ (Rect.block (s := S8192x8192) S512x8192.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S8192x128.size a
  hwx0_4 : ∀ i : grid0.Coords, EltTy.bits .f32 = 32 ∨ (Rect.block (s := S8192x128) S512x128.size (cc0_transform_4 i) (hinb0_4 i)).WholeWords (EltTy.packing .f32)

variable [Facts₀]

def dot_S8192x128_S128x384_S8192x384_1_0_0_1_n_n : DotDims S8192x128 S128x384 S8192x384 where
  lhsContracting := [1]
  rhsContracting := [0]
  lhsNonContracting := [0]
  rhsNonContracting := [1]
  lhsBatch := []
  rhsBatch := []
  wf := dot_S8192x128_S128x384_S8192x384_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S_, .i32⟩
  | .hbm, ⟨11, _⟩ => ⟨S8192x8192, .i32⟩
  | .hbm, ⟨12, _⟩ => ⟨S8192x8192, .i1⟩
  | .hbm, ⟨13, _⟩ => ⟨S8192x8192, .f32⟩
  | .hbm, ⟨14, _⟩ => ⟨S_, .i32⟩
  | .hbm, ⟨15, _⟩ => ⟨S8192x8192, .i32⟩
  | .hbm, ⟨16, _⟩ => ⟨S8192x8192, .i1⟩
  | .hbm, ⟨17, _⟩ => ⟨S8192x8192, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S1x128, .f32⟩
  | .hbm, ⟨27, _⟩ => ⟨S8192x128, .f32⟩
  | .hbm, ⟨28, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.WordLaunchSide.lean ====
/-
  The launch side of the kernel's frame as printed, stated at any float instance.

  @main is two host operations — the three weight matrices laid side by side into one [128, 384] matrix, and
  the bias vector viewed as a [1, 128] row — followed by the one region of 17 grid points.  `V` is what each
  TensorCore buffer holds when the region is entered; the argument arrays are untouched by the two host
  operations.  `iblk` is a window's block at a grid point read off its array.  The body has two branches:
  the first is taken exactly at point 0 (the feature matrix times the joined weights is stored in the
  scratch), the second exactly at the points 1..16 (one block of 512 output rows is computed from the
  scratch).  The output window is idle at point 0, where nothing is stored into it and nothing is
  written back.
-/
import proofs.«181727_g24739011625684_cont_8to1_1532_26_alg».proof.Proof.Gen.Kernel.Launch
import proofs.«181727_g24739011625684_cont_8to1_1532_26_alg».proof.Proof.Gen.Kernel.Skeleton
import proofs.«181727_g24739011625684_cont_8to1_1532_26_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s TensorCore buffers hold when the region is entered: the launch memory after the two host
    operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes an argument array: each writes only its own result. -/
theorem V_arg (c : Dev nD) (b : Ref sig .tc) (h6 : b ≠ main_v0) (h7 : b ≠ main_v1) : V m c b = m ((c : Thread nD τ).loc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne h6, StableHlo.devRef_ne_of_ne h7⟩))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)
theorem V_main_arg5 (c : Dev nD) : V m c main_arg5 = m ((c : Thread nD τ).loc main_arg5) := V_arg m c _ (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not,
    for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every array of the pipeline
    at what the proof data says and every other unscoped buffer as the region found it leaves the six argument
    arrays as launched: two are staged inputs, four are buffers the region never touches. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's two branch conditions -/

/-- The first branch's condition, from the grid coordinate: the coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second branch's condition: the coordinate is positive. -/
abbrev cond0_1 (i : grid0.Coords) : Prop := k0_cond2 i = 1#1
/-- It holds at every point but the first. -/
theorem hcond0_1 : ∀ t : Fin cfg0.N, cond0_1 (grid0.coords t) ↔ t.val ≠ 0 :=
  (by decide +kernel : ∀ t : Fin grid0.N, cond0_1 (grid0.coords t) ↔ t.val ≠ 0)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the first point the output window is idle: the body stores nothing into it there, -/
theorem idleAt0_4_A : ∀ t : Fin cfg0.N, t.val = 0 → cfg0.idle 4 (grid0.coords t) = true := by decide +kernel
/-- and the pipeline does not write its block back there. -/
theorem noFlush0_4_A : ∀ t : Fin cfg0.N, t.val = 0 → (cfg0.win 4).flush t = false := by decide +kernel
/-- At every later point the body stores the whole block. -/
theorem liveAt0_4_B : ∀ t : Fin cfg0.N, t.val ≠ 0 → cfg0.idle 4 (grid0.coords t) = false := by decide +kernel

/-! ## The staging memrefs the pipeline passes, and the scratch -/

abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x8192 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
/-- The scratch: a whole scoped buffer of the kernel's own, carried from point to point. -/
abbrev scM0_0 : Memref sig .tc .vmem S8192x384 .bf16 := Memref.whole cc0_scratch0
abbrev VS0_0 : View sig .tc .vmem S8192x384 .bf16 := scM0_0.view
/-- One staging buffer of the output window, through which its contents are stated. -/
abbrev VO0_4 : View sig .tc .vmem S512x128 .f32 := (Memref.whole cc0_stg4_0 : Memref sig .tc .vmem S512x128 .f32).view

/-- The region's class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.WordFirstPoint.lean ====
/-
  The body at the first grid point, on any whole staging memrefs: only the first branch is taken.  It loads
  the feature block and the joined weights, loads the scratch (whose contents at that moment are arbitrary and
  are not used), and stores the product, narrowed to bf16, over the whole scratch.  The run holds the two
  inputs as they were and the scratch with the store's pieces written; the other windows are not touched.
-/
import proofs.«181727_g24739011625684_cont_8to1_1532_26_alg».proof.Proof.WordLaunchSide

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first point's store leaves in the scratch, with the proof that the body runs to a continuation
    holding the two inputs unchanged and the scratch with those pieces written. -/
noncomputable def kernelRun0_A (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : cond0_0 i) (hc1 : ¬cond0_1 i)
    (x0 : Vec F S8192x128 .f32) (x1 : Vec F S128x384 .f32) :
    { LS0 : List (View.Piece (Elt F) S8192x384 .bf16) //
      ∀ (E : Set ℕ) (K : PUnit → sProp 𝕄),
        iprop(owns (c : Thread nD τ) arg1 fullShare x0 ∗ owns (c : Thread nD τ) arg2 fullShare x1 ∗ (∃ d, owns (c : Thread nD τ) arg6 fullShare d)
            ∗ (iprop(owns (c : Thread nD τ) arg1 fullShare x0 ∗ owns (c : Thread nD τ) arg2 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Fr

end
-- ==== Proof.WordLaterPoint.lean ====
/-
  The body at a later grid point, on any whole staging memrefs: only the second branch is taken.  It loads a
  block of 512 rows of the integer adjacency matrix, the scratch, and the bias row, forms the three 0/1 masks,
  multiplies each with its third of the scratch's columns, adds the three products and the bias, loads the
  output's staging buffer (whose contents are arbitrary and unused) and stores the sum over all of it.  The
  run holds the inputs and the scratch as they were and the output's buffer with the store's pieces written.
-/
import proofs.«181727_g24739011625684_cont_8to1_1532_26_alg».proof.Proof.WordLaunchSide

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later point's store leaves in the output's staging buffer, with the proof that the body runs to a
    continuation holding the adjacency block, the bias row and the scratch unchanged and the output's buffer with
    those pieces written. -/
noncomputable def kernelRun0_B (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : ¬cond0_0 i) (hc1 : cond0_1 i)
    (x2 : Vec F S512x8192 .i32) (x3 : Vec F S1x128 .f32) (xs0 : Vec F S8192x384 .bf16) :
    { L4 : List (View.Piece (Elt F) S512x128 .f32) //
      ∀ (E : Set ℕ) (K : PUnit → sProp 𝕄),
        iprop(owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f2, %hf2, H2⟩, ⟨%f3, %hf3, H3⟩, ⟨%d4, %f4, -, H4⟩, ⟨%fs, %hfs, HS0⟩, Hk⟩
    obtain rfl := harg3.eq_unread hf2; obtain rfl := harg4.eq_unread hf3; obtain rfl := harg6.eq_unread hfs
    sl_exec (disch := first | exact hc0 | exact hc1)
    sl_step
    iapply Hk
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; isplitr; · ipureintro; exact harg6.read_unread _
    iexact HS0

end Cert.Kernel.Fr

end
-- ==== Proof.WordFrameRun.lean ====
/-
  The printed kernel's frame run, stated at any float instance.

  What the first point's store leaves in the scratch is named `scr`; every later point only reads the scratch,
  so it holds `scr` from the end of point 0 to the end of the region.  What a later point `t` leaves in the
  output's staging buffer is named `outAt t`: the second branch's store over that point's adjacency block and
  bias row and `scr`.  With these as the proof data (each input window's buffer at its block, the output's at
  `outAt`, the invariant "the scratch holds `scr`" after point 0) the body meets its obligation at every
  point, and the region's launch theorem gives the run: it terminates, faults nowhere, ends with the output
  array at what the proof data's write-backs make it and every other unscoped buffer as the region found it.
-/
import proofs.«181727_g24739011625684_cont_8to1_1532_26_alg».proof.Proof.WordFirstPoint
import proofs.«181727_g24739011625684_cont_8to1_1532_26_alg».proof.Proof.WordLaterPoint

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces cover the scratch: one store of the whole shape. -/
theorem scover0_A_0 (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : cond0_0 i) (hc1 : ¬cond0_1 i)
    (x0 : Vec F S8192x128 .f32) (x1 : Vec F S128x384 .f32) (y : S8192x384.Idx) :
    ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S8192x384.size (by sl_kernel_rfl) y

/-- What the first point leaves in the scratch: its pieces read back. -/
def sout0_A_0 (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : cond0_0 i) (hc1 : ¬cond0_1 i)
    (x0 : Vec F S8192x128 .f32) (x1 : Vec F S128x384 .f32) : Vec F S8192x384 .bf16 :=
  VS0_0.read (Elt F) (VS0_0.writes (Elt F) VS0_0.junk (kernelRun0_A c i arg1 harg1 arg2 harg2 arg3 harg3 arg4 harg4 arg5 harg5 arg6 harg6 hc0 hc1 x0 x1).1)

/-- A later point's pieces cover the output's block: one store of the whole shape. -/
theorem cover0_B_4 (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : ¬cond0_0 i) (hc1 : cond0_1 i)
    (x2 : Vec F S512x8192 .i32) (x3 : Vec F S1x128 .f32) (xs0 : Vec F S8192x384 .bf16) (y : S512x128.Idx) :
    ∃ pc ∈ (kernelRun0_B c i arg1 harg1 arg2 harg2 arg3 harg3 arg4 harg4 arg5 harg5 arg6 harg6 hc0 hc1 x2 x3 xs0).1, y ∈ pc.1.set :=
  View.cover_of_tiledL (kernelRun0_B c i arg1 harg1 arg2 harg2 arg3 harg3 arg4 harg4 arg5 harg5 arg6 harg6 hc0 hc1 x2 x3 xs0).1 S512x128.size (by sl_kernel_rfl) y

/-- What a later point leaves in the output's staging buffer: its pieces read back. -/
def out0_B_4 (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : ¬cond0_0 i) (hc1 : cond0_1 i)
    (x2 : Vec F S512x8192 .i32) (x3 : Vec F S1x128 .f32) (xs0 : Vec F S8192x384 .bf16) : Vec F S512x128 .f32 :=
  VO0_4.read (Elt F) (VO0_4.writes (Elt F) VO0_4.junk (kernelRun0_B c i arg1 harg1 arg2 harg2 arg3 harg3 arg4 harg4 arg5 harg5 arg6 harg6 hc0 hc1 x2 x3 xs0).1)

/-! ## What the scratch and the output's buffer hold -/

/-- The first grid point. -/
abbrev t0 : Fin cfg0.N := ⟨0, by decide⟩

/-- The scratch from the end of the first point on: the first branch's store over the first point's feature block
    and joined weights. -/
def scr (c : Dev nD) : Vec F S8192x384 .bf16 :=
  sout0_A_0 c (grid0.coords t0) (ms0_0 t0) (hs0_0 t0) (ms0_1 t0) (hs0_1 t0) (ms0_2 t0) (hs0_2 t0) (ms0_3 t0) (hs0_3 t0) (ms0_4 t0) (hs0_4 t0) scM0_0 (Memref.isWhole_whole _) ((hcond0_0 t0).mpr rfl) (fun h => (hcond0_1 t0).mp h rfl) (iblk m c 0 t0) (iblk m c 1 t0)

/-- The output's staging buffer after the body at point `t`: at a later point the second branch's store over the
    point's adjacency block, the bias row and the scratch; at the first point the window is idle and this
    value is a placeholder nothing consults. -/
def outAt (c : Dev nD) (t : Fin cfg0.N) : Vec F S512x128 .f32 :=
  if h : t.val = 0 then VO0_4.read (Elt F) VO0_4.junk
  else out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) ((hcond0_1 t).mpr h) (iblk m c 2 t) (iblk m c 3 t) (scr m c)

theorem outAt_pos (c : Dev nD) (t : Fin cfg0.N) (h : t.val ≠ 0) :
    outAt m c t = out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) ((hcond0_1 t).mpr h) (iblk m c 2 t) (iblk m c 3 t) (scr m c) :=
  dif_neg h

/-- The region's invariant before position `n`: before the first point the class's (the scratch at anything);
    afterwards the scratch at `scr`; the generator register at some state throughout. -/
def PhiS (c : Dev nD) : ℕ → sProp 𝕄
  | 0 => Pipeline.ΦA spec0 c
  | _ + 1 => iprop(iprop(owns (c : Thread nD τ) scM0_0 fullShare (scr m c)) ∗ (∃ r, prngReg c r))

theorem PhiS_pos (c : Dev nD) (n : ℕ) (hz : n ≠ 0) :
    PhiS m c n = iprop(iprop(owns (c : Thread nD τ) scM0_0 fullShare (scr m c)) ∗ (∃ r, prngReg c r)) := by
  cases n with
  | zero => exact absurd rfl hz
  | succ n => rfl

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) :
    (dats m 0 c).Φ t.succ = iprop(iprop(owns (c : Thread nD τ) scM0_0 fullShare (scr m c)) ∗ (∃ r, prngReg c r)) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point.  At the first point the first branch's run applies: the invariant hands it the scratch
    at anything and takes it back at `scr`; the output window is idle.  At a later point the second branch's run
    applies: the invariant hands it the scratch at `scr` and takes it back unchanged; the output's buffer ends at
    `outAt t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [Phi_succ, Phi_castSucc]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases hz : t.val = 0
  · obtain rfl : t = t0 := Fin.ext hz
    rw [Dat.leavesExact_idle (dats m 0 c) 4 t0 (idleAt0_4_A t0 rfl) (noFlush0_4_A t0 rfl)]
    rw [show PhiS m c (t0 : Fin cfg0.N).val = Pipeline.ΦA spec0 c from rfl, PhiA0_eq]
    unfold scr sout0_A_0
    iintro ⟨⟨HS0, Hg⟩, Ho, ⟨%d0, H0⟩, ⟨%d1, H1⟩, ⟨%d2, H2⟩, ⟨%d3, H3⟩, ⟨%d4, H4⟩⟩
    iapply ((kernelRun0_A c (grid0.coords t0) _ _ _ _ _ _ _ _ _ _ _ _ ((hcond0_0 t0).mpr rfl) (fun h => (hcond0_1 t0).mp h rfl) (iblk m c 0 t0) (iblk m c 1 t0)).2 Set.univ _)
    isplitl [H0]; · iexact H0
    isplitl [H1]; · iexact H1
    isplitl [HS0]; · iexact HS0
    iintro ⟨H0, H1, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · rw [show (dats m 0 c).leavesExact 4 t = owns (c : Thread nD τ) (ms0_4 t) fullShare ((dats m 0 c).after 4 t) from by
      unfold Dat.leavesExact; rw [liveAt0_4_B t hz], after0_4, outAt_pos m c t hz]
    rw [PhiS_pos m c _ hz]
    unfold out0_B_4
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h' => hz ((hcond0_0 t).mp h')) ((hcond0_1 t).mpr hz) (iblk m c 2 t) (iblk m c 3 t) (scr m c)).2 Set.univ _)
    isplitl [H2]; · iexact H2
    isplitl [H3]; · iexact H3
    isplitl [H4]; · iexists _; iexact H4
    isplitl [HS0]; · iexact HS0
    iintro ⟨H2, H3, ⟨%e4, H4⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 :=
  Idealize.SL.BI.Entails.refl _

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 17 := N_0; omega), PhiA0_eq]
  iintro ⟨HS0, Hg⟩
  isplitl [HS0]
  · iexists _; iexact HS0
  iexact Hg

/-! ## The run and the frame -/

set_option backward.isDefEq.respectTransparency.types false in
/-- Every weakly fair execution of @main terminates, nothing faults, and every final state has every array of the
    pipeline at what the proof data's write-backs make it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Fr

end
-- ==== Proof.IdealLaunchSide.lean ====
/-
  The launch side of the idealized kernel's frame, stated at any float instance.

  @main is two host operations — the three weight matrices laid side by side into one [128, 384] matrix, and
  the bias vector viewed as a [1, 128] row — followed by the one region of 17 grid points.  `V` is what each
  TensorCore buffer holds when the region is entered; the argument arrays are untouched by the two host
  operations.  `iblk` is a window's block at a grid point read off its array.  The body has two branches:
  the first is taken exactly at point 0 (the feature matrix times the joined weights is stored in the
  scratch), the second exactly at the points 1..16 (one block of 512 output rows is computed from the
  scratch).  The output window is idle at point 0, where nothing is stored into it and nothing is
  written back.
-/
import proofs.«181727_g24739011625684_cont_8to1_1532_26_alg».proof.Proof.Gen.KernelIdeal.Launch
import proofs.«181727_g24739011625684_cont_8to1_1532_26_alg».proof.Proof.Gen.KernelIdeal.Skeleton
import proofs.«181727_g24739011625684_cont_8to1_1532_26_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s TensorCore buffers hold when the region is entered: the launch memory after the two host
    operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes an argument array: each writes only its own result. -/
theorem V_arg (c : Dev nD) (b : Ref sig .tc) (h6 : b ≠ main_v0) (h7 : b ≠ main_v1) : V m c b = m ((c : Thread nD τ).loc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne h6, StableHlo.devRef_ne_of_ne h7⟩))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)
theorem V_main_arg5 (c : Dev nD) : V m c main_arg5 = m ((c : Thread nD τ).loc main_arg5) := V_arg m c _ (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not,
    for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every array of the pipeline
    at what the proof data says and every other unscoped buffer as the region found it leaves the six argument
    arrays as launched: two are staged inputs, four are buffers the region never touches. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's two branch conditions -/

/-- The first branch's condition, from the grid coordinate: the coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second branch's condition: the coordinate is positive. -/
abbrev cond0_1 (i : grid0.Coords) : Prop := k0_cond2 i = 1#1
/-- It holds at every point but the first. -/
theorem hcond0_1 : ∀ t : Fin cfg0.N, cond0_1 (grid0.coords t) ↔ t.val ≠ 0 :=
  (by decide +kernel : ∀ t : Fin grid0.N, cond0_1 (grid0.coords t) ↔ t.val ≠ 0)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the first point the output window is idle: the body stores nothing into it there, -/
theorem idleAt0_4_A : ∀ t : Fin cfg0.N, t.val = 0 → cfg0.idle 4 (grid0.coords t) = true := by decide +kernel
/-- and the pipeline does not write its block back there. -/
theorem noFlush0_4_A : ∀ t : Fin cfg0.N, t.val = 0 → (cfg0.win 4).flush t = false := by decide +kernel
/-- At every later point the body stores the whole block. -/
theorem liveAt0_4_B : ∀ t : Fin cfg0.N, t.val ≠ 0 → cfg0.idle 4 (grid0.coords t) = false := by decide +kernel

/-! ## The staging memrefs the pipeline passes, and the scratch -/

abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x8192 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
/-- The scratch: a whole scoped buffer of the kernel's own, carried from point to point. -/
abbrev scM0_0 : Memref sig .tc .vmem S8192x384 .bf16 := Memref.whole cc0_scratch0
abbrev VS0_0 : View sig .tc .vmem S8192x384 .bf16 := scM0_0.view
/-- One staging buffer of the output window, through which its contents are stated. -/
abbrev VO0_4 : View sig .tc .vmem S512x128 .f32 := (Memref.whole cc0_stg4_0 : Memref sig .tc .vmem S512x128 .f32).view

/-- The region's class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.IdealFirstPoint.lean ====
/-
  The body at the first grid point, on any whole staging memrefs: only the first branch is taken.  It loads
  the feature block and the joined weights, loads the scratch (whose contents at that moment are arbitrary and
  are not used), and stores the product, narrowed to bf16, over the whole scratch.  The run holds the two
  inputs as they were and the scratch with the store's pieces written; the other windows are not touched.
-/
import proofs.«181727_g24739011625684_cont_8to1_1532_26_alg».proof.Proof.IdealLaunchSide

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first point's store leaves in the scratch, with the proof that the body runs to a continuation
    holding the two inputs unchanged and the scratch with those pieces written. -/
noncomputable def kernelRun0_A (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : cond0_0 i) (hc1 : ¬cond0_1 i)
    (x0 : Vec F S8192x128 .f32) (x1 : Vec F S128x384 .f32) :
    { LS0 : List (View.Piece (Elt F) S8192x384 .bf16) //
      ∀ (E : Set ℕ) (K : PUnit → sProp 𝕄),
        iprop(owns (c : Thread nD τ) arg1 fullShare x0 ∗ owns (c : Thread nD τ) arg2 fullShare x1 ∗ (∃ d, owns (c : Thread nD τ) arg6 fullShare d)
            ∗ (iprop(owns (c : Thread nD τ) arg1 fullShare x0 ∗ owns (c : Thread nD τ) arg2 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Fr

end
-- ==== Proof.IdealLaterPoint.lean ====
/-
  The body at a later grid point, on any whole staging memrefs: only the second branch is taken.  It loads a
  block of 512 rows of the integer adjacency matrix, the scratch, and the bias row, forms the three 0/1 masks,
  multiplies each with its third of the scratch's columns, adds the three products and the bias, loads the
  output's staging buffer (whose contents are arbitrary and unused) and stores the sum over all of it.  The
  run holds the inputs and the scratch as they were and the output's buffer with the store's pieces written.
-/
import proofs.«181727_g24739011625684_cont_8to1_1532_26_alg».proof.Proof.IdealLaunchSide

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later point's store leaves in the output's staging buffer, with the proof that the body runs to a
    continuation holding the adjacency block, the bias row and the scratch unchanged and the output's buffer with
    those pieces written. -/
noncomputable def kernelRun0_B (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : ¬cond0_0 i) (hc1 : cond0_1 i)
    (x2 : Vec F S512x8192 .i32) (x3 : Vec F S1x128 .f32) (xs0 : Vec F S8192x384 .bf16) :
    { L4 : List (View.Piece (Elt F) S512x128 .f32) //
      ∀ (E : Set ℕ) (K : PUnit → sProp 𝕄),
        iprop(owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f2, %hf2, H2⟩, ⟨%f3, %hf3, H3⟩, ⟨%d4, %f4, -, H4⟩, ⟨%fs, %hfs, HS0⟩, Hk⟩
    obtain rfl := harg3.eq_unread hf2; obtain rfl := harg4.eq_unread hf3; obtain rfl := harg6.eq_unread hfs
    sl_exec (disch := first | exact hc0 | exact hc1)
    sl_step
    iapply Hk
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; isplitr; · ipureintro; exact harg6.read_unread _
    iexact HS0

end Cert.KernelIdeal.Fr

end
-- ==== Proof.IdealFrameRun.lean ====
/-
  The idealized kernel's frame run, stated at any float instance.

  What the first point's store leaves in the scratch is named `scr`; every later point only reads the scratch,
  so it holds `scr` from the end of point 0 to the end of the region.  What a later point `t` leaves in the
  output's staging buffer is named `outAt t`: the second branch's store over that point's adjacency block and
  bias row and `scr`.  With these as the proof data (each input window's buffer at its block, the output's at
  `outAt`, the invariant "the scratch holds `scr`" after point 0) the body meets its obligation at every
  point, and the region's launch theorem gives the run: it terminates, faults nowhere, ends with the output
  array at what the proof data's write-backs make it and every other unscoped buffer as the region found it.
-/
import proofs.«181727_g24739011625684_cont_8to1_1532_26_alg».proof.Proof.IdealFirstPoint
import proofs.«181727_g24739011625684_cont_8to1_1532_26_alg».proof.Proof.IdealLaterPoint

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces cover the scratch: one store of the whole shape. -/
theorem scover0_A_0 (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : cond0_0 i) (hc1 : ¬cond0_1 i)
    (x0 : Vec F S8192x128 .f32) (x1 : Vec F S128x384 .f32) (y : S8192x384.Idx) :
    ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S8192x384.size (by sl_kernel_rfl) y

/-- What the first point leaves in the scratch: its pieces read back. -/
def sout0_A_0 (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : cond0_0 i) (hc1 : ¬cond0_1 i)
    (x0 : Vec F S8192x128 .f32) (x1 : Vec F S128x384 .f32) : Vec F S8192x384 .bf16 :=
  VS0_0.read (Elt F) (VS0_0.writes (Elt F) VS0_0.junk (kernelRun0_A c i arg1 harg1 arg2 harg2 arg3 harg3 arg4 harg4 arg5 harg5 arg6 harg6 hc0 hc1 x0 x1).1)

/-- A later point's pieces cover the output's block: one store of the whole shape. -/
theorem cover0_B_4 (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : ¬cond0_0 i) (hc1 : cond0_1 i)
    (x2 : Vec F S512x8192 .i32) (x3 : Vec F S1x128 .f32) (xs0 : Vec F S8192x384 .bf16) (y : S512x128.Idx) :
    ∃ pc ∈ (kernelRun0_B c i arg1 harg1 arg2 harg2 arg3 harg3 arg4 harg4 arg5 harg5 arg6 harg6 hc0 hc1 x2 x3 xs0).1, y ∈ pc.1.set :=
  View.cover_of_tiledL (kernelRun0_B c i arg1 harg1 arg2 harg2 arg3 harg3 arg4 harg4 arg5 harg5 arg6 harg6 hc0 hc1 x2 x3 xs0).1 S512x128.size (by sl_kernel_rfl) y

/-- What a later point leaves in the output's staging buffer: its pieces read back. -/
def out0_B_4 (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : ¬cond0_0 i) (hc1 : cond0_1 i)
    (x2 : Vec F S512x8192 .i32) (x3 : Vec F S1x128 .f32) (xs0 : Vec F S8192x384 .bf16) : Vec F S512x128 .f32 :=
  VO0_4.read (Elt F) (VO0_4.writes (Elt F) VO0_4.junk (kernelRun0_B c i arg1 harg1 arg2 harg2 arg3 harg3 arg4 harg4 arg5 harg5 arg6 harg6 hc0 hc1 x2 x3 xs0).1)

/-! ## What the scratch and the output's buffer hold -/

/-- The first grid point. -/
abbrev t0 : Fin cfg0.N := ⟨0, by decide⟩

/-- The scratch from the end of the first point on: the first branch's store over the first point's feature block
    and joined weights. -/
def scr (c : Dev nD) : Vec F S8192x384 .bf16 :=
  sout0_A_0 c (grid0.coords t0) (ms0_0 t0) (hs0_0 t0) (ms0_1 t0) (hs0_1 t0) (ms0_2 t0) (hs0_2 t0) (ms0_3 t0) (hs0_3 t0) (ms0_4 t0) (hs0_4 t0) scM0_0 (Memref.isWhole_whole _) ((hcond0_0 t0).mpr rfl) (fun h => (hcond0_1 t0).mp h rfl) (iblk m c 0 t0) (iblk m c 1 t0)

/-- The output's staging buffer after the body at point `t`: at a later point the second branch's store over the
    point's adjacency block, the bias row and the scratch; at the first point the window is idle and this
    value is a placeholder nothing consults. -/
def outAt (c : Dev nD) (t : Fin cfg0.N) : Vec F S512x128 .f32 :=
  if h : t.val = 0 then VO0_4.read (Elt F) VO0_4.junk
  else out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) ((hcond0_1 t).mpr h) (iblk m c 2 t) (iblk m c 3 t) (scr m c)

theorem outAt_pos (c : Dev nD) (t : Fin cfg0.N) (h : t.val ≠ 0) :
    outAt m c t = out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) ((hcond0_1 t).mpr h) (iblk m c 2 t) (iblk m c 3 t) (scr m c) :=
  dif_neg h

/-- The region's invariant before position `n`: before the first point the class's (the scratch at anything);
    afterwards the scratch at `scr`; the generator register at some state throughout. -/
def PhiS (c : Dev nD) : ℕ → sProp 𝕄
  | 0 => Pipeline.ΦA spec0 c
  | _ + 1 => iprop(iprop(owns (c : Thread nD τ) scM0_0 fullShare (scr m c)) ∗ (∃ r, prngReg c r))

theorem PhiS_pos (c : Dev nD) (n : ℕ) (hz : n ≠ 0) :
    PhiS m c n = iprop(iprop(owns (c : Thread nD τ) scM0_0 fullShare (scr m c)) ∗ (∃ r, prngReg c r)) := by
  cases n with
  | zero => exact absurd rfl hz
  | succ n => rfl

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) :
    (dats m 0 c).Φ t.succ = iprop(iprop(owns (c : Thread nD τ) scM0_0 fullShare (scr m c)) ∗ (∃ r, prngReg c r)) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point.  At the first point the first branch's run applies: the invariant hands it the scratch
    at anything and takes it back at `scr`; the output window is idle.  At a later point the second branch's run
    applies: the invariant hands it the scratch at `scr` and takes it back unchanged; the output's buffer ends at
    `outAt t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [Phi_succ, Phi_castSucc]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases hz : t.val = 0
  · obtain rfl : t = t0 := Fin.ext hz
    rw [Dat.leavesExact_idle (dats m 0 c) 4 t0 (idleAt0_4_A t0 rfl) (noFlush0_4_A t0 rfl)]
    rw [show PhiS m c (t0 : Fin cfg0.N).val = Pipeline.ΦA spec0 c from rfl, PhiA0_eq]
    unfold scr sout0_A_0
    iintro ⟨⟨HS0, Hg⟩, Ho, ⟨%d0, H0⟩, ⟨%d1, H1⟩, ⟨%d2, H2⟩, ⟨%d3, H3⟩, ⟨%d4, H4⟩⟩
    iapply ((kernelRun0_A c (grid0.coords t0) _ _ _ _ _ _ _ _ _ _ _ _ ((hcond0_0 t0).mpr rfl) (fun h => (hcond0_1 t0).mp h rfl) (iblk m c 0 t0) (iblk m c 1 t0)).2 Set.univ _)
    isplitl [H0]; · iexact H0
    isplitl [H1]; · iexact H1
    isplitl [HS0]; · iexact HS0
    iintro ⟨H0, H1, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · rw [show (dats m 0 c).leavesExact 4 t = owns (c : Thread nD τ) (ms0_4 t) fullShare ((dats m 0 c).after 4 t) from by
      unfold Dat.leavesExact; rw [liveAt0_4_B t hz], after0_4, outAt_pos m c t hz]
    rw [PhiS_pos m c _ hz]
    unfold out0_B_4
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h' => hz ((hcond0_0 t).mp h')) ((hcond0_1 t).mpr hz) (iblk m c 2 t) (iblk m c 3 t) (scr m c)).2 Set.univ _)
    isplitl [H2]; · iexact H2
    isplitl [H3]; · iexact H3
    isplitl [H4]; · iexists _; iexact H4
    isplitl [HS0]; · iexact HS0
    iintro ⟨H2, H3, ⟨%e4, H4⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 :=
  Idealize.SL.BI.Entails.refl _

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 17 := N_0; omega), PhiA0_eq]
  iintro ⟨HS0, Hg⟩
  isplitl [HS0]
  · iexists _; iexact HS0
  iexact Hg

/-! ## The run and the frame -/

set_option backward.isDefEq.respectTransparency.types false in
/-- Every weakly fair execution of @main terminates, nothing faults, and every final state has every array of the
    pipeline at what the proof data's write-backs make it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.LibConcatCols.lean ====
/-
  A matrix built by laying pieces side by side, read at an entry.

  Pieces of one height `R` and any widths are concatenated along the columns into an `R × C` matrix. The entry at
  row `r`, column `k` is the entry of the piece whose span of columns holds `k`: if the pieces before piece `n`
  have total width `pre`, and `k = pre + k'` with `k'` a column of piece `n`, the entry is piece `n` at `(r, k')`.
-/
import Idealize.ShloMosaic.Lib.Pipeline.Value
import Idealize.ShloMosaic.Lib.ValueIdx

namespace LibConcatCols

open Idealize.ShloMosaic Idealize.ShloMosaic.ValueIdx

variable {α : Type}

/-- The column-wise concatenation `xs` of matrices of height `R`, read at row `r` and column `k`: piece `n`, of
    width `c`, at `(r, k')`, where the pieces before it are `pre` columns wide together and `k = pre + k'`. -/
theorem concatenate_cols_apply {R C : Nat} (xs : List ((s : Shape) × (s.Idx → α)))
    (h : Shape.Concatenates (xs.map (·.1)) (⟨2, ![R, C]⟩ : Shape) (1 : Fin 2))
    (r : Fin R) (k : Fin C) (n : Nat) (hn : n < xs.length) (c : Nat)
    (x₁ : (⟨2, ![R, c]⟩ : Shape).Idx → α) (hxn : xs[n] = ⟨(⟨2, ![R, c]⟩ : Shape), x₁⟩) (pre : Nat)
    (hpre : (((xs.take n).map (·.1)).map fun s : Shape =>
        if h : s.rank = (⟨2, ![R, C]⟩ : Shape).rank then s.size ((1 : Fin (⟨2, ![R, C]⟩ : Shape).rank).cast h.symm) else 0).sum = pre)
    (k' : Fin c) (hk : pre + k'.val = k.val) :
    concatenate (⟨2, ![R, C]⟩ : Shape) (1 : Fin 2) xs h (ix2 r k) = x₁ (ix2 r k') :=
  concatenate_apply_piece (t := (⟨2, ![R, C]⟩ : Shape)) (1 : Fin 2) xs h (ix2 r k) n hn (⟨2, ![R, c]⟩ : Shape) x₁ hxn rfl pre hpre
    (ix2 r k')
    (fun b hb => match b, hb with
      | ⟨0, _⟩, _ => rfl
      | ⟨1, _⟩, hb => absurd rfl hb)
    hk

end LibConcatCols
-- ==== Proof.GraphConvSpec.lean ====
/-
  The graph convolution as one function of the argument arrays, entry by entry, over the extended reals.

  For a node-feature matrix `V` (8192 × 128), an integer adjacency matrix `adj` (8192 × 8192) whose entries
  name an edge type, one weight matrix per edge type 1, 2, 3 (128 × 128 each) and a bias vector (128):

    out[r, c] = ((Σ_k [adj[r,k] = 1] · (V·w1)[k,c] + Σ_k [adj[r,k] = 2] · (V·w2)[k,c]) + Σ_k [adj[r,k] = 3] · (V·w3)[k,c]) + bias[c]

  with `(V·w)[k,c] = Σ_j V[k,j] · w[j,c]` and `[p]` the indicator, 1 or 0.  The three terms are added in this
  order, then the bias; no law of arithmetic beyond that order is used anywhere, so nothing here needs the
  entries to be finite.
-/
import Idealize.ShloMosaic.PureOps.Ideal
import Idealize.ShloMosaic.Lib.ValueIdx

noncomputable section

open scoped BigOperators

namespace GraphConv

open Idealize.ShloMosaic Idealize.ShloMosaic.ValueIdx

/-- Column `c` of the block of 128 columns that starts at column `n`, in a matrix of three such blocks side by side. -/
abbrev col (n : Nat) (hn : n ≤ 256) (c : Fin 128) : Fin 384 := ⟨n + c.val, by omega⟩

/-- The indicator of "the word is `n`" as an extended real: the one-bit comparison read as an unsigned integer. -/
def ind (n w : BitVec 32) : EReal := FloatOps.uitofp (F := Ideal) .f32 (IntOp.cmpi .eq w n)

/-- A one-bit word widened to 32 bits and read as a signed integer is the bit read as an unsigned integer: both are 0
    or 1. -/
theorem sitofp_setWidth (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by revert b; decide
  rw [h, Int.cast_natCast]

/-- Entry `(k, c)` of the feature matrix times a weight matrix. -/
def feat (V : (⟨2, ![8192, 128]⟩ : Shape).Idx → EReal) (w : (⟨2, ![128, 128]⟩ : Shape).Idx → EReal) (k : Fin 8192) (c : Fin 128) : EReal :=
  ∑ j : Fin 128, V (ix2 k j) * w (ix2 j c)

/-- Entry `(r, c)` of the aggregation over the edges of type `n`. -/
def agg (n : BitVec 32) (adj : (⟨2, ![8192, 8192]⟩ : Shape).Idx → BitVec 32) (V : (⟨2, ![8192, 128]⟩ : Shape).Idx → EReal)
    (w : (⟨2, ![128, 128]⟩ : Shape).Idx → EReal) (r : Fin 8192) (c : Fin 128) : EReal :=
  ∑ k : Fin 8192, ind n (adj (ix2 r k)) * feat V w k c

/-- The result at row `r`, column `c`. -/
def outAtRC (V : (⟨2, ![8192, 128]⟩ : Shape).Idx → EReal) (adj : (⟨2, ![8192, 8192]⟩ : Shape).Idx → BitVec 32)
    (w1 w2 w3 : (⟨2, ![128, 128]⟩ : Shape).Idx → EReal) (b : (⟨1, ![128]⟩ : Shape).Idx → EReal) (r : Fin 8192) (c : Fin 128) : EReal :=
  ((agg 1#32 adj V w1 r c + agg 2#32 adj V w2 r c) + agg 3#32 adj V w3 r c) + b (ix1 c)

/-- The result array. -/
def out (V : (⟨2, ![8192, 128]⟩ : Shape).Idx → EReal) (adj : (⟨2, ![8192, 8192]⟩ : Shape).Idx → BitVec 32)
    (w1 w2 w3 : (⟨2, ![128, 128]⟩ : Shape).Idx → EReal) (b : (⟨1, ![128]⟩ : Shape).Idx → EReal) :
    (⟨2, ![8192, 128]⟩ : Shape).Idx → EReal :=
  fun i => outAtRC V adj w1 w2 w3 b (i 0) (i 1)

theorem out_ix2 (V : (⟨2, ![8192, 128]⟩ : Shape).Idx → EReal) (adj : (⟨2, ![8192, 8192]⟩ : Shape).Idx → BitVec 32)
    (w1 w2 w3 : (⟨2, ![128, 128]⟩ : Shape).Idx → EReal) (b : (⟨1, ![128]⟩ : Shape).Idx → EReal) (r : Fin 8192) (c : Fin 128) :
    out V adj w1 w2 w3 b (ix2 r c) = outAtRC V adj w1 w2 w3 b r c := rfl

end GraphConv

end
-- ==== Proof.IdealBlocks.lean ====
/-
  Each window's block at a grid point, and the two arrays the host operations write before the region, read at
  an entry — at any float instance.

  The printed index maps, decided once over the 17 points: the feature matrix, the joined weights and the bias
  row are always block (0, 0), the whole array; the adjacency window and the output window at point `t` are row
  block `t − 1` (block 0 at point 0), 512 rows each.  So a block's entry (r, k) is the array's entry
  (512·(t − 1) + r, k).  The joined weights are the three weight matrices side by side: column `o + q` of the
  block starting at column `o` ∈ {0, 128, 256} is column `q` of the first, second or third matrix.  The bias row
  is the bias vector with a leading axis of extent one.
-/
import proofs.«181727_g24739011625684_cont_8to1_1532_26_alg».proof.Proof.IdealFrameRun
import proofs.«181727_g24739011625684_cont_8to1_1532_26_alg».proof.Proof.LibConcatCols
import proofs.«181727_g24739011625684_cont_8to1_1532_26_alg».proof.Proof.GraphConvSpec
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx GraphConv

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed index maps over the grid. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val - 1 ∧ win0_2.index t (1 : Fin 2) = 0
    ∧ win0_3.index t (0 : Fin 2) = 0 ∧ win0_3.index t (1 : Fin 2) = 0
    ∧ win0_4.index t (0 : Fin 2) = t.val - 1 ∧ win0_4.index t (1 : Fin 2) = 0 :=
  (by decide +kernel : ∀ t : Fin grid0.N, _)

/-- Every point but the first writes the output's block back. -/
theorem flush0_4 : ∀ t : Fin cfg0.N, t.val ≠ 0 → (cfg0.win 4).flush t = true := by decide +kernel

/-- The array row that row `r` of point `t`'s block of 512 rows is. -/
def row (t : Fin cfg0.N) (r : Fin 512) : Fin 8192 :=
  ⟨(t.val - 1) * 512 + r.val, by have := t.isLt; have hN : cfg0.N = 17 := N_0; omega⟩

/-- The feature window's block is the whole feature matrix. -/
theorem iblk0_apply (c : Dev nD) (t : Fin cfg0.N) (k : Fin 8192) (j : Fin 128) :
    (iblk m c 0 t : Vec F S8192x128 .f32) (ix2 k j) = (m ((c : Thread nD τ).loc main_arg0) : S8192x128.Idx → Elt F .f32) (ix2 k j) := by
  obtain ⟨e00, e01, -⟩ := idx_facts t
  unfold iblk
  rw [View.read_apply]
  show V m c main_arg0 _ = _
  refine (congrFun (V_main_arg0 m c) _).trans (congrArg (m ((c : Thread nD τ).loc main_arg0) : S8192x128.Idx → Elt F .f32) (funext fun a => Fin.ext ?_))
  match a with
  | ⟨0, _⟩ => show win0_0.index t (0 : Fin 2) * 8192 + 1 * k.val = k.val; omega
  | ⟨1, _⟩ => show win0_0.index t (1 : Fin 2) * 128 + 1 * j.val = j.val; omega

/-- The weights window's block is the whole joined-weights matrix as the region finds it. -/
theorem iblk1_apply (c : Dev nD) (t : Fin cfg0.N) (j : Fin 128) (q : Fin 384) :
    (iblk m c 1 t : Vec F S128x384 .f32) (ix2 j q) = (V m c main_v0 : S128x384.Idx → Elt F .f32) (ix2 j q) := by
  obtain ⟨-, -, e10, e11, -⟩ := idx_facts t
  unfold iblk
  rw [View.read_apply]
  show V m c main_v0 _ = _
  refine congrArg (V m c main_v0 : S128x384.Idx → Elt F .f32) (funext fun a => Fin.ext ?_)
  match a with
  | ⟨0, _⟩ => show win0_1.index t (0 : Fin 2) * 128 + 1 * j.val = j.val; omega
  | ⟨1, _⟩ => show win0_1.index t (1 : Fin 2) * 384 + 1 * q.val = q.val; omega

/-- The adjacency window's block at point `t` is rows `512·(t − 1) …` of the adjacency matrix. -/
theorem iblk2_apply (c : Dev nD) (t : Fin cfg0.N) (r : Fin 512) (k : Fin 8192) :
    (iblk m c 2 t : Vec F S512x8192 .i32) (ix2 r k) = (m ((c : Thread nD τ).loc main_arg1) : S8192x8192.Idx → Elt F .i32) (ix2 (row t r) k) := by
  obtain ⟨-, -, -, -, e20, e21, -⟩ := idx_facts t
  unfold iblk
  rw [View.read_apply]
  show V m c main_arg1 _ = _
  refine (congrFun (V_main_arg1 m c) _).trans (congrArg (m ((c : Thread nD τ).loc main_arg1) : S8192x8192.Idx → Elt F .i32) (funext fun a => Fin.ext ?_))
  match a with
  | ⟨0, _⟩ => show win0_2.index t (0 : Fin 2) * 512 + 1 * r.val = (t.val - 1) * 512 + r.val; omega
  | ⟨1, _⟩ => show win0_2.index t (1 : Fin 2) * 8192 + 1 * k.val = k.val; omega

/-- The bias window's block is the whole bias row as the region finds it. -/
theorem iblk3_apply (c : Dev nD) (t : Fin cfg0.N) (q : Fin 128) :
    (iblk m c 3 t : Vec F S1x128 .f32) (ix2 0 q) = (V m c main_v1 : S1x128.Idx → Elt F .f32) (ix2 0 q) := by
  obtain ⟨-, -, -, -, -, -, e30, e31, -⟩ := idx_facts t
  unfold iblk
  rw [View.read_apply]
  show V m c main_v1 _ = _
  refine congrArg (V m c main_v1 : S1x128.Idx → Elt F .f32) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- Where entry (r, q) of point `t`'s output block sits in the output array. -/
theorem emb4 (t : Fin cfg0.N) (r : Fin 512) (q : Fin 128) :
    ((cfg0.win 4).blk t).view.emb (ix2 r q) = (ix2 (row t r) q : S8192x128.Idx) := by
  obtain ⟨-, -, -, -, -, -, -, -, e40, e41⟩ := idx_facts t
  funext a; apply Fin.ext
  match a with
  | ⟨0, _⟩ => show win0_4.index t (0 : Fin 2) * 512 + 1 * r.val = (t.val - 1) * 512 + r.val; omega
  | ⟨1, _⟩ => show win0_4.index t (1 : Fin 2) * 128 + 1 * q.val = q.val; omega

/-! ## What the two host operations write -/

/-- The joined weights: the three weight matrices laid side by side. -/
theorem V_v0 (c : Dev nD) : (V m c main_v0 : S128x384.Idx → Elt F .f32)
    = concatenate S128x384 1 [⟨S128x128, m ((c : Thread nD τ).loc main_arg2)⟩, ⟨S128x128, m ((c : Thread nD τ).loc main_arg3)⟩, ⟨S128x128, m ((c : Thread nD τ).loc main_arg4)⟩]
        concatenates_S128x128_S128x128_S128x128_S128x384_d1 := by
  dsimp only [V, hostOps0]
  after_results
  rfl

/-- The bias row: the bias vector given a leading axis of extent one. -/
theorem V_v1 (c : Dev nD) : (V m c main_v1 : S1x128.Idx → Elt F .f32)
    = shapeCast S1x128 (m ((c : Thread nD τ).loc main_arg5) : S128.Idx → Elt F .f32) shapeCasts_S128_S1x128 := by
  dsimp only [V, hostOps0]
  after_results
  rfl

/-- Column `q` of the first block of the joined weights is column `q` of the first weight matrix. -/
theorem V_v0_first (c : Dev nD) (j q : Fin 128) :
    (V m c main_v0 : S128x384.Idx → Elt F .f32) (ix2 j (col 0 (by omega) q))
      = (m ((c : Thread nD τ).loc main_arg2) : S128x128.Idx → Elt F .f32) (ix2 j q) := by
  rw [V_v0]
  exact LibConcatCols.concatenate_cols_apply _ _ j (col 0 (by omega) q) 0 (by show 0 < 3; omega) 128 _ rfl 0 rfl q rfl

/-- Column `q` of the second block is column `q` of the second weight matrix. -/
theorem V_v0_second (c : Dev nD) (j q : Fin 128) :
    (V m c main_v0 : S128x384.Idx → Elt F .f32) (ix2 j (col 128 (by omega) q))
      = (m ((c : Thread nD τ).loc main_arg3) : S128x128.Idx → Elt F .f32) (ix2 j q) := by
  rw [V_v0]
  exact LibConcatCols.concatenate_cols_apply _ _ j (col 128 (by omega) q) 1 (by show 1 < 3; omega) 128 _ rfl 128 rfl q rfl

/-- Column `q` of the third block is column `q` of the third weight matrix. -/
theorem V_v0_third (c : Dev nD) (j q : Fin 128) :
    (V m c main_v0 : S128x384.Idx → Elt F .f32) (ix2 j (col 256 (by omega) q))
      = (m ((c : Thread nD τ).loc main_arg4) : S128x128.Idx → Elt F .f32) (ix2 j q) := by
  rw [V_v0]
  exact LibConcatCols.concatenate_cols_apply _ _ j (col 256 (by omega) q) 2 (by show 2 < 3; omega) 128 _ rfl 256 rfl q rfl

/-- Entry (0, q) of the bias row is entry `q` of the bias vector. -/
theorem V_v1_apply (c : Dev nD) (q : Fin 128) :
    (V m c main_v1 : S1x128.Idx → Elt F .f32) (ix2 0 q) = (m ((c : Thread nD τ).loc main_arg5) : S128.Idx → Elt F .f32) (ix1 q) := by
  rw [V_v1]
  refine (shapeCast_addUnit_apply ![128] _ shapeCasts_S128_S1x128 (ix2 0 q)).trans (congrArg _ (funext fun a => ?_))
  match a with
  | ⟨0, _⟩ => rfl

end Cert.KernelIdeal.Fr

end
-- ==== Proof.IdealPieces.lean ====
/-
  The pieces the two runs found, as values, at any float instance.

  The first point's one store covers the whole scratch at offset zero, so what it leaves there is its payload:
  the narrowed product of the two blocks it loaded.  A later point's one store covers the whole output block, so
  what it leaves is its payload over the adjacency block, the scratch and the bias row it loaded.  Hence the
  scratch from the first point on, and the output's buffer after each later point, as payloads of blocks.
-/
import proofs.«181727_g24739011625684_cont_8to1_1532_26_alg».proof.Proof.IdealFrameRun
import Idealize.ShloMosaic.Lib.Pipeline.Value

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by
  funext a; match a with | ⟨0, _⟩ => rfl | ⟨1, _⟩ => rfl

/-- What the first point leaves in the scratch is its store's payload. -/
theorem scr_piece (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : cond0_0 i) (hc1 : ¬cond0_1 i)
    (x0 : Vec F S8192x128 .f32) (x1 : Vec F S128x384 .f32) :
    sout0_A_0 c i arg1 harg1 arg2 harg2 arg3 harg3 arg4 harg4 arg5 harg5 arg6 harg6 hc0 hc1 x0 x1 = k0_pay1 x0 x1 := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  rw [View.canon_unit_zero hz2]
  simp only [View.readAt_eq_ld, harg1.read_unread, harg2.read_unread, View.ld_unit_zero (S := S8192x128) hz2, View.ld_unit_zero (S := S128x384) hz2]

/-- What a later point leaves in the output's buffer is its store's payload. -/
theorem out_piece (c : Dev nD) (i : grid0.Coords) (arg1 : Memref sig .tc .vmem S8192x128 .f32) (harg1 : arg1.IsWhole) (arg2 : Memref sig .tc .vmem S128x384 .f32) (harg2 : arg2.IsWhole) (arg3 : Memref sig .tc .vmem S512x8192 .i32) (harg3 : arg3.IsWhole) (arg4 : Memref sig .tc .vmem S1x128 .f32) (harg4 : arg4.IsWhole) (arg5 : Memref sig .tc .vmem S512x128 .f32) (harg5 : arg5.IsWhole) (arg6 : Memref sig .tc .vmem S8192x384 .bf16) (harg6 : arg6.IsWhole) (hc0 : ¬cond0_0 i) (hc1 : cond0_1 i)
    (x2 : Vec F S512x8192 .i32) (x3 : Vec F S1x128 .f32) (xs0 : Vec F S8192x384 .bf16) :
    out0_B_4 c i arg1 harg1 arg2 harg2 arg3 harg3 arg4 harg4 arg5 harg5 arg6 harg6 hc0 hc1 x2 x3 xs0 = k0_pay2 x2 xs0 x3 := by
  unfold out0_B_4
  rw [View.read_writes_eq_canon _ _ _ (cover0_B_4 c i arg1 harg1 arg2 harg2 arg3 harg3 arg4 harg4 arg5 harg5 arg6 harg6 hc0 hc1 x2 x3 xs0)]
  unfold kernelRun0_B
  dsimp only
  rw [View.canon_unit_zero hz2]
  simp only [View.readAt_eq_ld, harg3.read_unread, harg4.read_unread, harg6.read_unread, View.ld_unit_zero (S := S512x8192) hz2, View.ld_unit_zero (S := S1x128) hz2, View.ld_unit_zero (S := S8192x384) hz2]

/-- The scratch from the first point on: the first branch's payload over the first point's two blocks. -/
theorem scr_eq (c : Dev nD) : scr m c = k0_pay1 (iblk m c 0 t0) (iblk m c 1 t0) := by
  unfold scr; exact scr_piece _ _ _ _ _ _ _ _ _ _ _ _ _ _ _ _ _ _

/-- The output's buffer after a later point: the second branch's payload over that point's blocks and the scratch. -/
theorem outAt_eq (c : Dev nD) (t : Fin cfg0.N) (h : t.val ≠ 0) :
    outAt m c t = k0_pay2 (iblk m c 2 t) (scr m c) (iblk m c 3 t) := by
  rw [outAt_pos m c t h]; exact out_piece _ _ _ _ _ _ _ _ _ _ _ _ _ _ _ _ _ _ _

end Cert.KernelIdeal.Fr

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.IdealPayloads.lean ====
/-
  The two payloads of the idealized kernel's body, read at an entry over the extended reals.

  The first is a matrix product narrowed to bf16, which at the ideal values is the product itself: entry (k, c) is
  the sum over j of x0[k, j] · x1[j, c].  The second is three products of a 0/1 mask with a third of the scratch's
  columns, added in order, plus the bias row spread over the rows: the mask for edge type n is the comparison of
  the adjacency word with n, widened and read as a signed integer, which is the indicator; the n-th third of
  the columns starts at column 128·(n − 1).
-/
import proofs.«181727_g24739011625684_cont_8to1_1532_26_alg».proof.Proof.Gen.KernelIdeal.Skeleton
import proofs.«181727_g24739011625684_cont_8to1_1532_26_alg».proof.Proof.LibMatmul2
import proofs.«181727_g24739011625684_cont_8to1_1532_26_alg».proof.Proof.GraphConvSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Pay

open Cert.KernelIdeal Cert.KernelIdeal.Gen
open Idealize.ShloMosaic Idealize.ShloMosaic.ValueIdx GraphConv

/-- The first payload at an entry: the product's sum. -/
theorem pay1_apply (x0 : Vec Ideal S8192x128 .f32) (x1 : Vec Ideal S128x384 .f32) (k : Fin 8192) (c : Fin 384) :
    k0_pay1 (F := Ideal) x0 x1 (ix2 k c) = ∑ j : Fin 128, x0 (ix2 k j) * x1 (ix2 j c) := by
  unfold k0_pay1
  simp only [shapeCast_self]
  exact LibMatmul2.matmul_nn_apply (φ₁ := .f32) (φ₂ := .f32) _ none x0 x1 k c

/-- One masked product at an entry: the indicator-weighted sum of a third of the scratch's columns. -/
theorem masked_apply (x2 : Vec Ideal S512x8192 .i32) (xs : FVec Ideal S8192x384 .bf16) (n : BitVec 32) (o : Nat) (ho : o ≤ 256)
    (hs : S8192x384.Slices ![0, o] S8192x128) (r : Fin 512) (c : Fin 128) :
    matmul (F := Ideal) dot_S512x8192_S8192x128_S512x128_1_0_0_1_n_n none
        (sitofp .f32 (extui 32 (cmpi .eq x2 (broadcast S512x8192 n)) natLt_1_32))
        (extractStridedSlice S8192x128 ![0, o] xs hs) (constant S512x128 .f32 0x00000000#32) (ix2 r c)
      = ∑ k : Fin 8192, ind n (x2 (ix2 r k)) * xs (ix2 k (col o ho c)) := by
  refine (LibMatmul2.matmul_nn_apply (φ₁ := .f32) (φ₂ := .bf16) _ none _ _ r c).trans (Finset.sum_congr rfl fun k _ => ?_)
  refine congrArg₂ (· * ·) (sitofp_setWidth _) ?_
  exact extractStridedSlice_apply _ xs hs (ix2 k c) (ix2 k (col o ho c)) (fun a => match a with
    | ⟨0, _⟩ => (Nat.zero_add _).symm
    | ⟨1, _⟩ => rfl)

/-- The bias row spread over the rows, at an entry. -/
theorem bias_apply (x3 : Vec Ideal S1x128 .f32) (r : Fin 512) (c : Fin 128) :
    broadcastTo S512x128 x3 broadcasts_S1x128_S512x128 (ix2 r c) = x3 (ix2 0 c) :=
  broadcastTo_apply x3 broadcasts_S1x128_S512x128 (ix2 r c) (ix2 0 c) (fun a => match a with
    | ⟨0, _⟩ => by show 0 = if (1 : Nat) = 1 then 0 else _; rw [if_pos rfl]
    | ⟨1, _⟩ => by show c.val = if (128 : Nat) = 1 then 0 else c.val; rw [if_neg (by decide)])

/-- The second payload at an entry. -/
theorem pay2_apply (x2 : Vec Ideal S512x8192 .i32) (xs : Vec Ideal S8192x384 .bf16) (x3 : Vec Ideal S1x128 .f32) (r : Fin 512) (c : Fin 128) :
    k0_pay2 (F := Ideal) x2 xs x3 (ix2 r c)
      = ((∑ k : Fin 8192, ind 1#32 (x2 (ix2 r k)) * xs (ix2 k (col 0 (by omega) c))
          + ∑ k : Fin 8192, ind 2#32 (x2 (ix2 r k)) * xs (ix2 k (col 128 (by omega) c)))
          + ∑ k : Fin 8192, ind 3#32 (x2 (ix2 r k)) * xs (ix2 k (col 256 (by omega) c)))
        + x3 (ix2 0 c) := by
  unfold k0_pay2
  simp only [shapeCast_self]
  refine congrArg₂ (· + ·) (congrArg₂ (· + ·) (congrArg₂ (· + ·) ?_ ?_) ?_) ?_
  · exact masked_apply x2 xs 1#32 0 (by omega) _ r c
  · exact masked_apply x2 xs 2#32 128 (by omega) _ r c
  · exact masked_apply x2 xs 3#32 256 (by omega) _ r c
  · exact bias_apply x3 r c

end Cert.KernelIdeal.Pay

end
-- ==== Proof.IdealArray.lean ====
/-
  The idealized kernel's result array, at the ideal values.

  The scratch holds, from the first point on, the feature matrix times the joined weights: its entry
  (k, o + q), for o ∈ {0, 128, 256}, is the entry (k, q) of the feature matrix times the first, second or third
  weight matrix.  What point t ≥ 1 writes back is therefore rows 512·(t − 1) … of the graph convolution of
  the specification: the three indicator-weighted sums over the nodes, added in order, plus the bias.  Every
  row r of the output lies in the block of point r / 512 + 1, and that point writes its block back, so after the
  run the output array is the specification's array.
-/
import proofs.«181727_g24739011625684_cont_8to1_1532_26_alg».proof.Proof.IdealBlocks
import proofs.«181727_g24739011625684_cont_8to1_1532_26_alg».proof.Proof.IdealPieces
import proofs.«181727_g24739011625684_cont_8to1_1532_26_alg».proof.Proof.IdealPayloads

set_option maxRecDepth 16384

noncomputable section

open scoped BigOperators

namespace Cert.KernelIdeal.Fr

open Cert.KernelIdeal.Gen
open Idealize.ShloMosaic Idealize.ShloMosaic.TcCoe
open Idealize.SL.Sem
open Idealize.ShloMosaic.Pipeline (Dat)
open Idealize.ShloMosaic.ValueIdx GraphConv

variable (m : (ℓ : Loc nD τ sig) → Buf (Elt Ideal) ℓ) (ρ : Dev nD → PrngReg)

/-- The specification's array of the six argument arrays as launched. -/
def result (c : Dev nD) : S8192x128.Idx → EReal :=
  GraphConv.out (m ((c : Thread nD τ).loc main_arg0) : S8192x128.Idx → Elt Ideal .f32)
    (m ((c : Thread nD τ).loc main_arg1) : S8192x8192.Idx → Elt Ideal .i32)
    (m ((c : Thread nD τ).loc main_arg2) : S128x128.Idx → Elt Ideal .f32)
    (m ((c : Thread nD τ).loc main_arg3) : S128x128.Idx → Elt Ideal .f32)
    (m ((c : Thread nD τ).loc main_arg4) : S128x128.Idx → Elt Ideal .f32)
    (m ((c : Thread nD τ).loc main_arg5) : S128.Idx → Elt Ideal .f32)

/-! ## The scratch's three blocks of columns -/

theorem scr_first (c : Dev nD) (k : Fin 8192) (q : Fin 128) :
    scr m c (ix2 k (col 0 (by omega) q))
      = feat (m ((c : Thread nD τ).loc main_arg0) : S8192x128.Idx → Elt Ideal .f32) (m ((c : Thread nD τ).loc main_arg2) : S128x128.Idx → Elt Ideal .f32) k q := by
  rw [scr_eq]
  refine (Pay.pay1_apply (iblk m c 0 t0) (iblk m c 1 t0) k (col 0 (by omega) q)).trans (Finset.sum_congr rfl fun j _ => ?_)
  exact congrArg₂ (· * ·) (iblk0_apply m c t0 k j) ((iblk1_apply m c t0 j _).trans (V_v0_first m c j q))

theorem scr_second (c : Dev nD) (k : Fin 8192) (q : Fin 128) :
    scr m c (ix2 k (col 128 (by omega) q))
      = feat (m ((c : Thread nD τ).loc main_arg0) : S8192x128.Idx → Elt Ideal .f32) (m ((c : Thread nD τ).loc main_arg3) : S128x128.Idx → Elt Ideal .f32) k q := by
  rw [scr_eq]
  refine (Pay.pay1_apply (iblk m c 0 t0) (iblk m c 1 t0) k (col 128 (by omega) q)).trans (Finset.sum_congr rfl fun j _ => ?_)
  exact congrArg₂ (· * ·) (iblk0_apply m c t0 k j) ((iblk1_apply m c t0 j _).trans (V_v0_second m c j q))

theorem scr_third (c : Dev nD) (k : Fin 8192) (q : Fin 128) :
    scr m c (ix2 k (col 256 (by omega) q))
      = feat (m ((c : Thread nD τ).loc main_arg0) : S8192x128.Idx → Elt Ideal .f32) (m ((c : Thread nD τ).loc main_arg4) : S128x128.Idx → Elt Ideal .f32) k q := by
  rw [scr_eq]
  refine (Pay.pay1_apply (iblk m c 0 t0) (iblk m c 1 t0) k (col 256 (by omega) q)).trans (Finset.sum_congr rfl fun j _ => ?_)
  exact congrArg₂ (· * ·) (iblk0_apply m c t0 k j) ((iblk1_apply m c t0 j _).trans (V_v0_third m c j q))

/-! ## What a point writes back -/

/-- What a flushing point writes back is its block of the specification's array. -/
theorem flushed_eq (c : Dev nD) (t : Fin cfg0.N) (hf : (cfg0.win 4).flush t = true) :
    (dats m 0 c).flushed 4 t = ((cfg0.win 4).blk t).view.read (Elt Ideal) (result m c) := by
  have ht : t.val ≠ 0 := fun h => by rw [noFlush0_4_A t h] at hf; exact Bool.false_ne_true hf
  show (cfg0.win 4).cut (grid0.coords t) ((dats m 0 c).after 4 t) = _
  rw [after0_4, outAt_eq m c t ht]
  funext j
  obtain ⟨r, q, rfl⟩ : ∃ (r : Fin 512) (q : Fin 128), j = ix2 r q := ⟨j 0, j 1, eq_ix2 j⟩
  show k0_pay2 (iblk m c 2 t) (scr m c) (iblk m c 3 t) (ix2 r q) = result m c (((cfg0.win 4).blk t).view.emb (ix2 r q))
  rw [emb4 t r q]
  refine (Pay.pay2_apply (iblk m c 2 t) (scr m c) (iblk m c 3 t) r q).trans ?_
  show _ = outAtRC _ _ _ _ _ _ (row t r) q
  unfold outAtRC agg
  refine congrArg₂ (· + ·) (congrArg₂ (· + ·) (congrArg₂ (· + ·) ?_ ?_) ?_) ?_
  · exact Finset.sum_congr rfl fun k _ => congrArg₂ (· * ·) (congrArg (ind 1#32) (iblk2_apply m c t r k)) (scr_first m c k q)
  · exact Finset.sum_congr rfl fun k _ => congrArg₂ (· * ·) (congrArg (ind 2#32) (iblk2_apply m c t r k)) (scr_second m c k q)
  · exact Finset.sum_congr rfl fun k _ => congrArg₂ (· * ·) (congrArg (ind 3#32) (iblk2_apply m c t r k)) (scr_third m c k q)
  · exact (iblk3_apply m c t q).trans (V_v1_apply m c q)

/-! ## The cover and the final array -/

/-- An index of the output array is in point `t`'s block iff each coordinate is in the block's range. -/
theorem mem_blk4 (t : Fin cfg0.N) (i : S8192x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v2).slice (win0_4.rect t)).set ↔ _
  rw [View.set_slice_whole, Rect.mem_set_unit]
  exact Iff.rfl

/-- Row `r` of the output lies in the block of point `r / 512 + 1`, which writes its block back. -/
theorem cover (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 17 := N_0
  let t : Fin cfg0.N := ⟨(i 0).val / 512 + 1, by omega⟩
  have htv : t.val = (i 0).val / 512 + 1 := rfl
  obtain ⟨-, -, -, -, -, -, -, -, e40, e41⟩ := idx_facts t
  refine ⟨t, flush0_4 t (by omega), ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- After the run the output array is the specification's array. -/
theorem final (c : Dev nD) : (dats m 0 c).arrAt 4 cfg0.N = result m c :=
  (dats m 0 c).arrAt_eq_of_cover 4 (result m c) (flushed_eq m c) cover

/-- The run, with its result named: the program terminates, faults nowhere, ends with its result array at the
    specification's array of the arguments, and leaves the arguments as launched. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 4).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Fr

end
-- ==== Proof.ReferenceReading.lean ====
/-
  The reference's result, read at an entry, is the graph convolution of the specification.

  Stage by stage: each mask is the comparison of the adjacency word with the edge type read as an unsigned
  integer, the indicator; each inner product is the sum over the 128 input features; each outer product is the sum
  over the 8192 nodes of indicator times feature entry; the three are added in order and the bias, spread over
  the rows, is added last.  The index functions the generated reading uses are the coordinate pairs (r, k),
  (k, c), (k, j), (j, c) written out.
-/
import proofs.«181727_g24739011625684_cont_8to1_1532_26_alg».proof.Proof.Gen.ReferenceIdeal.Read
import proofs.«181727_g24739011625684_cont_8to1_1532_26_alg».proof.Proof.GraphConvSpec

set_option maxRecDepth 16384

noncomputable section

open scoped BigOperators

namespace Cert.ReferenceIdeal.RefValue

open Cert.ReferenceIdeal Cert.ReferenceIdeal.Read
open Idealize.ShloMosaic Idealize.ShloMosaic.ValueIdx GraphConv

/-! ## The generated index functions as coordinate pairs -/

theorem lidx9 (k : Fin 8192) (c j : Fin 128) : lidx_main_v9 (ix2 k c) j = ix2 k j :=
  funext fun a => Fin.ext (by match a with | ⟨0, _⟩ => rfl | ⟨1, _⟩ => rfl)
theorem ridx9 (k : Fin 8192) (c j : Fin 128) : ridx_main_v9 (ix2 k c) j = ix2 j c :=
  funext fun a => Fin.ext (by match a with | ⟨0, _⟩ => rfl | ⟨1, _⟩ => rfl)
theorem lidx10 (r : Fin 8192) (c : Fin 128) (k : Fin 8192) : lidx_main_v10 (ix2 r c) k = ix2 r k :=
  funext fun a => Fin.ext (by match a with | ⟨0, _⟩ => rfl | ⟨1, _⟩ => rfl)
theorem ridx10 (r : Fin 8192) (c : Fin 128) (k : Fin 8192) : ridx_main_v10 (ix2 r c) k = ix2 k c :=
  funext fun a => Fin.ext (by match a with | ⟨0, _⟩ => rfl | ⟨1, _⟩ => rfl)

/-! ## The masks -/

theorem mask1 (x1 : (⟨S8192x8192, .i32⟩ : BufTy).Contents (Elt Ideal)) (i : S8192x8192.Idx) :
    val_main_v2 (F := Ideal) x1 i = ind 1#32 (x1 i) := by
  rw [val_main_v2_apply, val_main_v1_apply, val_main_v0_apply, val_main_c_apply]; rfl
theorem mask2 (x1 : (⟨S8192x8192, .i32⟩ : BufTy).Contents (Elt Ideal)) (i : S8192x8192.Idx) :
    val_main_v5 (F := Ideal) x1 i = ind 2#32 (x1 i) := by
  rw [val_main_v5_apply, val_main_v4_apply, val_main_v3_apply, val_main_c_0_apply]; rfl
theorem mask3 (x1 : (⟨S8192x8192, .i32⟩ : BufTy).Contents (Elt Ideal)) (i : S8192x8192.Idx) :
    val_main_v8 (F := Ideal) x1 i = ind 3#32 (x1 i) := by
  rw [val_main_v8_apply, val_main_v7_apply, val_main_v6_apply, val_main_c_1_apply]; rfl

/-! ## The inner products -/

theorem feat1 (x0 : (⟨S8192x128, .f32⟩ : BufTy).Contents (Elt Ideal)) (x2 : (⟨S128x128, .f32⟩ : BufTy).Contents (Elt Ideal)) (k : Fin 8192) (c : Fin 128) :
    val_main_v9 (F := Ideal) x0 x2 (ix2 k c) = feat x0 x2 k c := by
  rw [val_main_v9_apply]
  exact Finset.sum_congr rfl fun j _ => by rw [lidx9, ridx9]
theorem feat2 (x0 : (⟨S8192x128, .f32⟩ : BufTy).Contents (Elt Ideal)) (x3 : (⟨S128x128, .f32⟩ : BufTy).Contents (Elt Ideal)) (k : Fin 8192) (c : Fin 128) :
    val_main_v11 (F := Ideal) x0 x3 (ix2 k c) = feat x0 x3 k c := by
  rw [val_main_v11_apply]
  exact Finset.sum_congr rfl fun j _ => by rw [show lidx_main_v11 (ix2 k c) j = ix2 k j from lidx9 k c j, show ridx_main_v11 (ix2 k c) j = ix2 j c from ridx9 k c j]
theorem feat3 (x0 : (⟨S8192x128, .f32⟩ : BufTy).Contents (Elt Ideal)) (x4 : (⟨S128x128, .f32⟩ : BufTy).Contents (Elt Ideal)) (k : Fin 8192) (c : Fin 128) :
    val_main_v13 (F := Ideal) x0 x4 (ix2 k c) = feat x0 x4 k c := by
  rw [val_main_v13_apply]
  exact Finset.sum_congr rfl fun j _ => by rw [show lidx_main_v13 (ix2 k c) j = ix2 k j from lidx9 k c j, show ridx_main_v13 (ix2 k c) j = ix2 j c from ridx9 k c j]

/-! ## The outer products -/

theorem agg1 (x0 : (⟨S8192x128, .f32⟩ : BufTy).Contents (Elt Ideal)) (x1 : (⟨S8192x8192, .i32⟩ : BufTy).Contents (Elt Ideal)) (x2 : (⟨S128x128, .f32⟩ : BufTy).Contents (Elt Ideal)) (r : Fin 8192) (c : Fin 128) :
    val_main_v10 (F := Ideal) x0 x1 x2 (ix2 r c) = agg 1#32 x1 x0 x2 r c := by
  rw [val_main_v10_apply]
  exact Finset.sum_congr rfl fun k _ => by rw [lidx10, ridx10, mask1, feat1]
theorem agg2 (x0 : (⟨S8192x128, .f32⟩ : BufTy).Contents (Elt Ideal)) (x1 : (⟨S8192x8192, .i32⟩ : BufTy).Contents (Elt Ideal)) (x3 : (⟨S128x128, .f32⟩ : BufTy).Contents (Elt Ideal)) (r : Fin 8192) (c : Fin 128) :
    val_main_v12 (F := Ideal) x0 x1 x3 (ix2 r c) = agg 2#32 x1 x0 x3 r c := by
  rw [val_main_v12_apply]
  exact Finset.sum_congr rfl fun k _ => by rw [show lidx_main_v12 (ix2 r c) k = ix2 r k from lidx10 r c k, show ridx_main_v12 (ix2 r c) k = ix2 k c from ridx10 r c k, mask2, feat2]
theorem agg3 (x0 : (⟨S8192x128, .f32⟩ : BufTy).Contents (Elt Ideal)) (x1 : (⟨S8192x8192, .i32⟩ : BufTy).Contents (Elt Ideal)) (x4 : (⟨S128x128, .f32⟩ : BufTy).Contents (Elt Ideal)) (r : Fin 8192) (c : Fin 128) :
    val_main_v14 (F := Ideal) x0 x1 x4 (ix2 r c) = agg 3#32 x1 x0 x4 r c := by
  rw [val_main_v14_apply]
  exact Finset.sum_congr rfl fun k _ => by rw [show lidx_main_v14 (ix2 r c) k = ix2 r k from lidx10 r c k, show ridx_main_v14 (ix2 r c) k = ix2 k c from ridx10 r c k, mask3, feat3]

/-! ## The bias, and the whole -/

theorem bias (x5 : (⟨S128, .f32⟩ : BufTy).Contents (Elt Ideal)) (r : Fin 8192) (c : Fin 128) :
    val_main_v18 (F := Ideal) x5 (ix2 r c) = x5 (ix1 c) := by
  rw [val_main_v18_apply, val_main_v17_apply]
  exact congrArg x5 (funext fun a => Fin.ext (by match a with | ⟨0, _⟩ => rfl))

/-- The reference's result is the specification's array. -/
theorem ref_is_out (x0 : (⟨S8192x128, .f32⟩ : BufTy).Contents (Elt Ideal)) (x1 : (⟨S8192x8192, .i32⟩ : BufTy).Contents (Elt Ideal))
    (x2 x3 x4 : (⟨S128x128, .f32⟩ : BufTy).Contents (Elt Ideal)) (x5 : (⟨S128, .f32⟩ : BufTy).Contents (Elt Ideal)) :
    val_main_v19 (F := Ideal) x0 x1 x2 x3 x4 x5 = GraphConv.out x0 x1 x2 x3 x4 x5 := by
  funext i
  obtain ⟨r, c, rfl⟩ : ∃ (r : Fin 8192) (c : Fin 128), i = ix2 r c := ⟨i 0, i 1, eq_ix2 i⟩
  rw [val_main_v19_apply, val_main_v16_apply, val_main_v15_apply, agg1, agg2, agg3, bias]
  rfl

end Cert.ReferenceIdeal.RefValue

end
-- ==== Proof.lean ====
/-
  The five claims about the graph-convolution kernel and its reference.

  The kernel runs a grid of 17 points.  At point 0 it multiplies the feature matrix with the three weight matrices
  laid side by side and keeps the product, narrowed to bf16, in a scratch buffer; at each later point it takes 512
  rows of the integer adjacency matrix, forms the three 0/1 masks "the entry is edge type 1 / 2 / 3", multiplies
  each with its third of the scratch's columns, adds the three products in order and then the bias, and writes the
  512 output rows back.  The reference computes  ((a1·(V·w1) + a2·(V·w2)) + a3·(V·w3)) + bias  on the host.

  Frames: each kernel program terminates, faults nowhere and leaves its six argument arrays as launched — the
  region's launch theorem over proof data that tracks what the scratch holds from point 0 on; the reference's frame is
  its run with the result dropped.  The ideal pass rewrote nothing, so `preserves` is `True`.  At the ideal values a
  change of float format is the identity and a matrix product is its sum of products, so both programs' result
  arrays are the same array, entry by entry: the same indicator-weighted sums added in the same order.  No
  distributive or cancellation law is used, so the finiteness of the inputs is never opened.
-/
import proofs.«181727_g24739011625684_cont_8to1_1532_26_alg».proof.Defs
import proofs.«181727_g24739011625684_cont_8to1_1532_26_alg».proof.Proof.Gen.Kernel
import proofs.«181727_g24739011625684_cont_8to1_1532_26_alg».proof.Proof.Gen.KernelIdeal
import proofs.«181727_g24739011625684_cont_8to1_1532_26_alg».proof.Proof.Gen.ReferenceIdeal
import proofs.«181727_g24739011625684_cont_8to1_1532_26_alg».proof.Proof.Gen.Pre_finite_inputs
import proofs.«181727_g24739011625684_cont_8to1_1532_26_alg».proof.Proof.Gen.ReferenceIdeal.Run
import proofs.«181727_g24739011625684_cont_8to1_1532_26_alg».proof.Proof.WordFrameRun
import proofs.«181727_g24739011625684_cont_8to1_1532_26_alg».proof.Proof.IdealArray
import proofs.«181727_g24739011625684_cont_8to1_1532_26_alg».proof.Proof.ReferenceReading

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Fr.frame m ρ

/-- So does the idealized kernel. -/
theorem frame_kernel_ideal : Cert.frame_KernelIdeal := fun m ρ _ => Cert.KernelIdeal.Fr.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the specification's array of the arguments. -/
theorem algebraic : Cert.algebraic_KernelIdeal_ReferenceIdeal := by
  intro m ρ m' ρ' _ hagree
  refine ⟨fun c => Cert.KernelIdeal.Fr.result m c, Cert.KernelIdeal.Fr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v19_eq, Cert.ReferenceIdeal.RefValue.ref_is_out, h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
